-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x64x64 : Shape := ⟨4, ![8, 128, 64, 64]⟩
abbrev S32x128 : Shape := ⟨2, ![32, 128]⟩
abbrev S32 : Shape := ⟨1, ![32]⟩
abbrev S_ : Shape := ⟨0, ![]⟩

class Facts : Prop where
  bcast_S_S8x128x64x64 : S_.BroadcastsInDim S8x128x64x64 (![] : Fin 0 → Fin S8x128x64x64.rank)
  reducesTo_S8x128x64x64_S_d0_1_2_3 : S8x128x64x64.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S8x128x64x64 .f32) (main_arg1 : FVec F S32x128 .f32) (main_arg2 : FVec F S32 .f32) : IVec S_ 1 :=
  let main_v0 : FVec F S8x128x64x64 .f32 := Host.absf main_arg0
  let main_cst : FVec F S_ .f32 := constant S_ .f32 0x7F800000#32
  let main_v1 : FVec F S8x128x64x64 .f32 := broadcastInDim S8x128x64x64 ![] bcast_S_S8x128x64x64 main_cst
  let main_v2 : IVec S8x128x64x64 1 := cmpf .olt main_v0 main_v1
  let main_c : IVec S_ 1 := constantI S_ 1 1#1
  let main_v3 : IVec S_ 1 := (fun x v => Host.reduce IntOp.andi x v reducesTo_S8x128x64x64_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S8x128x64x64 : Shape := ⟨4, ![8, 128, 64, 64]⟩
abbrev S32x128 : Shape := ⟨2, ![32, 128]⟩
abbrev S32 : Shape := ⟨1, ![32]⟩
abbrev S8x128x4096 : Shape := ⟨3, ![8, 128, 4096]⟩
abbrev S32x1 : Shape := ⟨2, ![32, 1]⟩
abbrev S8x32x128 : Shape := ⟨3, ![8, 32, 128]⟩
abbrev S2x128x4096 : Shape := ⟨3, ![2, 128, 4096]⟩
abbrev S2x32x128 : Shape := ⟨3, ![2, 32, 128]⟩
abbrev S1x128x4096 : Shape := ⟨3, ![1, 128, 4096]⟩
abbrev S128x4096 : Shape := ⟨2, ![128, 4096]⟩
abbrev S4096 : Shape := ⟨1, ![4096]⟩
abbrev S1x4096 : Shape := ⟨2, ![1, 4096]⟩
abbrev S32x4096 : Shape := ⟨2, ![32, 4096]⟩
abbrev S1x32x128 : Shape := ⟨3, ![1, 32, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x128x64x64, .f32⟩
  | .hbm, ⟨1, _⟩ => ⟨S32x128, .f32⟩
  | .hbm, ⟨2, _⟩ => ⟨S32, .f32⟩
  | .hbm, ⟨3, _⟩ => ⟨S8x128x4096, .f32⟩
  | .hbm, ⟨4, _⟩ => ⟨S32x1, .f32⟩
  | .hbm, ⟨5, _⟩ => ⟨S8x32x128, .f32⟩
  | .local _ .vmem, ⟨0, _⟩ => ⟨S2x128x4096, .f32⟩
  | .local _ .vmem, ⟨1, _⟩ => ⟨S2x128x4096, .f32⟩
  | .local _ .vmem, ⟨2, _⟩ => ⟨S32x128, .f32⟩
  | .local _ .vmem, ⟨3, _⟩ => ⟨S32x1, .f32⟩
  | .local _ .vmem, ⟨4, _⟩ => ⟨S2x32x128, .f32⟩
  | .local _ .vmem, ⟨5, _⟩ => ⟨S2x32x128, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x128x64x64_S8x128x4096 : S8x128x64x64.ShapeCasts S8x128x4096
  shapeCasts_S32_S32x1 : S32.ShapeCasts S32x1
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x128_S32 : S32x128.Reduces [1] S32
  inb_S2x128x4096_S1x128x4096_0_0_0 : ∀ a, (![0, 0, 0] : Fin 3 → Nat) a + S1x128x4096.size a ≤ S2x128x4096.size a
  h_S1x128x4096 : 0 < S1x128x4096.numel
  shapeCasts_S1x128x4096_S128x4096 : S1x128x4096.ShapeCasts S128x4096
  reduces_S128x4096_S4096 : S128x4096.Reduces [0] S4096
  shapeCasts_S4096_S1x4096 : S4096.ShapeCasts S1x4096
  broadcasts_S1x4096_S32x4096 : S1x4096.Broadcasts S32x4096
  broadcasts_S32x1_S32x4096 : S32x1.Broadcasts S32x4096
  reduces_S32x4096_S4096 : S32x4096.Reduces [0] S4096
  reduces_S32x4096_S32 : S32x4096.Reduces [1] S32
  broadcasts_S32x1_S32x128 : S32x1.Broadcasts S32x128
  inb_S2x32x128_S1x32x128_0_0_0 : ∀ a, (![0, 0, 0] : Fin 3 → Nat) a + S1x32x128.size a ≤ S2x32x128.size a
  h_S1x32x128 : 0 < S1x32x128.numel
  shapeCasts_S1x32x128_S32x128 : S1x32x128.ShapeCasts S32x128
  shapeCasts_S32x128_S1x32x128 : S32x128.ShapeCasts S1x32x128
  inb_S2x128x4096_S1x128x4096_1_0_0 : ∀ a, (![1, 0, 0] : Fin 3 → Nat) a + S1x128x4096.size a ≤ S2x128x4096.size a
  inb_S2x32x128_S1x32x128_1_0_0 : ∀ a, (![1, 0, 0] : Fin 3 → Nat) a + S1x32x128.size a ≤ S2x32x128.size a
  dot_S32x128_S128x4096_S32x4096_1_0_0_1_n_n_wf : DotDims.WF S32x128 S128x4096 S32x4096 [1] [0] [0] [1] [] []
  dot_S32x4096_S128x4096_S32x128_1_1_0_0_n_n_wf : DotDims.WF S32x4096 S128x4096 S32x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x4096.size a ≤ S8x128x4096.size a
  hwx0_0 : ∀ i : grid0.Coords, EltTy.bits .f32 = 32 ∨ (Rect.block (s := S8x128x4096) S2x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32x128.size a ≤ S8x32x128.size a
  hwx0_3 : ∀ i : grid0.Coords, EltTy.bits .f32 = 32 ∨ (Rect.block (s := S8x32x128) S2x32x128.size (cc0_transform_3 i) (hinb0_3 i)).WholeWords (EltTy.packing .f32)

variable [Facts₀]

def dot_S32x128_S128x4096_S32x4096_1_0_0_1_n_n : DotDims S32x128 S128x4096 S32x4096 where
  lhsContracting := [1]
  rhsContracting := [0]
  lhsNonContracting := [0]
  rhsNonContracting := [1]
  lhsBatch := []
  rhsBatch := []
  wf := dot_S32x128_S128x4096_S32x4096_1_0_0_1_n_n_wf
def dot_S32x4096_S128x4096_S32x128_1_1_0_0_n_n : DotDims S32x4096 S128x4096 S32x128 where
  lhsContracting := [1]
  rhsContracting := [1]
  lhsNonContracting := [0]
  rhsNonContracting := [0]
  lhsBatch := []
  rhsBatch := []
  wf := dot_S32x4096_S128x4096_S32x128_1_1_0_0_n_n_wf

abbrev win0_0 : Pipeline.Window sig grid0 :=
  Pipeline.Window.ofSpec (Memref.whole main_v0) S2x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x64x64 : Shape := ⟨4, ![8, 128, 64, 64]⟩
abbrev S32x128 : Shape := ⟨2, ![32, 128]⟩
abbrev S32 : Shape := ⟨1, ![32]⟩
abbrev S8x128x4096 : Shape := ⟨3, ![8, 128, 4096]⟩
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S8x4096x32 : Shape := ⟨3, ![8, 4096, 32]⟩
abbrev S1x1x32 : Shape := ⟨3, ![1, 1, 32]⟩
abbrev S8x32x128 : Shape := ⟨3, ![8, 32, 128]⟩
abbrev S8x32 : Shape := ⟨2, ![8, 32]⟩
abbrev S8x32x1 : Shape := ⟨3, ![8, 32, 1]⟩
abbrev S1x32x128 : Shape := ⟨3, ![1, 32, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x128x64x64, .f32⟩
  | .hbm, ⟨1, _⟩ => ⟨S32x128, .f32⟩
  | .hbm, ⟨2, _⟩ => ⟨S32, .f32⟩
  | .hbm, ⟨3, _⟩ => ⟨S8x128x4096, .f32⟩
  | .hbm, ⟨4, _⟩ => ⟨S8x4096x128, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S32x128, .f32⟩
  | .hbm, ⟨10, _⟩ => ⟨S_, .f32⟩
  | .hbm, ⟨11, _⟩ => ⟨S32, .f32⟩
  | .hbm, ⟨12, _⟩ => ⟨S8x4096x32, .f32⟩
  | .hbm, ⟨13, _⟩ => ⟨S_, .f32⟩
  | .hbm, ⟨14, _⟩ => ⟨S8x4096x32, .f32⟩
  | .hbm, ⟨15, _⟩ => ⟨S8x4096x32, .f32⟩
  | .hbm, ⟨16, _⟩ => ⟨S8x4096x32, .f32⟩
  | .hbm, ⟨17, _⟩ => ⟨S8x4096x32, .f32⟩
  | .hbm, ⟨18, _⟩ => ⟨S1x1x32, .f32⟩
  | .hbm, ⟨19, _⟩ => ⟨S8x4096x32, .f32⟩
  | .hbm, ⟨20, _⟩ => ⟨S8x4096x32, .f32⟩
  | .hbm, ⟨21, _⟩ => ⟨S1x1x32, .f32⟩
  | .hbm, ⟨22, _⟩ => ⟨S8x4096x32, .f32⟩
  | .hbm, ⟨23, _⟩ => ⟨S8x4096x32, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096x1, .f32⟩
  | .hbm, ⟨30, _⟩ => ⟨S8x4096x32, .f32⟩
  | .hbm, ⟨31, _⟩ => ⟨S8x4096x32, .f32⟩
  | .hbm, ⟨32, _⟩ => ⟨S8x4096x32, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x32, .f32⟩
  | .hbm, ⟨37, _⟩ => ⟨S8x4096x32, .f32⟩
  | .hbm, ⟨38, _⟩ => ⟨S8x32x128, .f32⟩
  | .hbm, ⟨39, _⟩ => ⟨S_, .f32⟩
  | .hbm, ⟨40, _⟩ => ⟨S8x32, .f32⟩
  | .hbm, ⟨41, _⟩ => ⟨S8x32x1, .f32⟩
  | .hbm, ⟨42, _⟩ => ⟨S1x32x128, .f32⟩
  | .hbm, ⟨43, _⟩ => ⟨S8x32x128, .f32⟩
  | .hbm, ⟨44, _⟩ => ⟨S8x32x128, .f32⟩
  | .hbm, ⟨45, _⟩ => ⟨S8x32x128, .f32⟩
  | .hbm, ⟨46, _⟩ => ⟨S8x32x128, .f32⟩
  | _, _ => ⟨S8x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S8x128x64x64_S8x128x4096 : S8x128x64x64.ShapeCasts S8x128x4096
  transposes_S8x128x4096_S8x4096x128_0_2_1 : S8x128x4096.Transposes [0, 2, 1] S8x4096x128
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  reducesTo_S32x128_S32_d1 : S32x128.ReducesTo [1] S32
  bcast_S_S8x4096x32 : S_.BroadcastsInDim S8x4096x32 (![] : Fin 0 → Fin S8x4096x32.rank)
  bcast_S8x4096x1_S8x4096x32_0_1_2 : S8x4096x1.BroadcastsInDim S8x4096x32 (![0, 1, 2] : Fin 3 → Fin S8x4096x32.rank)
  bcast_S32_S1x1x32_2 : S32.BroadcastsInDim S1x1x32 (![2] : Fin 1 → Fin S1x1x32.rank)
  bcast_S1x1x32_S8x4096x32_0_1_2 : S1x1x32.BroadcastsInDim S8x4096x32 (![0, 1, 2] : Fin 3 → Fin S8x4096x32.rank)
  reducesTo_S8x4096x32_S8x4096_d2 : S8x4096x32.ReducesTo [2] S8x4096
  bcast_S_S8x4096 : S_.BroadcastsInDim S8x4096 (![] : Fin 0 → Fin S8x4096.rank)
  reducesTo_S8x4096x32_S8x32_d1 : S8x4096x32.ReducesTo [1] S8x32
  bcast_S8x32_S8x32x1_0_1 : S8x32.BroadcastsInDim S8x32x1 (![0, 1] : Fin 2 → Fin S8x32x1.rank)
  bcast_S32x128_S1x32x128_1_2 : S32x128.BroadcastsInDim S1x32x128 (![1, 2] : Fin 2 → Fin S1x32x128.rank)
  bcast_S8x32x1_S8x32x128_0_1_2 : S8x32x1.BroadcastsInDim S8x32x128 (![0, 1, 2] : Fin 3 → Fin S8x32x128.rank)
  bcast_S1x32x128_S8x32x128_0_1_2 : S1x32x128.BroadcastsInDim S8x32x128 (![0, 1, 2] : Fin 3 → Fin S8x32x128.rank)
  dot_S8x4096x128_S32x128_S8x4096x32_2_1_01_0_n_n_wf : DotDims.WF S8x4096x128 S32x128 S8x4096x32 [2] [1] [0, 1] [0] [] []
  dot_S8x4096x32_S8x4096x128_S8x32x128_1_1_2_2_0_0_wf : DotDims.WF S8x4096x32 S8x4096x128 S8x32x128 [1] [1] [2] [2] [0] [0]

variable [Facts₀]

def dot_S8x4096x128_S32x128_S8x4096x32_2_1_01_0_n_n : DotDims S8x4096x128 S32x128 S8x4096x32 where
  lhsContracting := [2]
  rhsContracting := [1]
  lhsNonContracting := [0, 1]
  rhsNonContracting := [0]
  lhsBatch := []
  rhsBatch := []
  wf := dot_S8x4096x128_S32x128_S8x4096x32_2_1_01_0_n_n_wf
def dot_S8x4096x32_S8x4096x128_S8x32x128_1_1_2_2_0_0 : DotDims S8x4096x32 S8x4096x128 S8x32x128 where
  lhsContracting := [1]
  rhsContracting := [1]
  lhsNonContracting := [2]
  rhsNonContracting := [2]
  lhsBatch := [0]
  rhsBatch := [0]
  wf := dot_S8x4096x32_S8x4096x128_S8x32x128_1_1_2_2_0_0_wf

class Facts : Prop extends Facts₀ where

variable [Facts]
-- ==== Proof.SoftAssign.lean ====
/-
  Soft assignment of descriptors to codewords, and the residual aggregate, on the extended reals.

  For one sample, x d n is coordinate d of descriptor n (128 coordinates, 4096 descriptors), cw k d is coordinate d of
  codeword k (32 codewords), sc k is codeword k's scale and cs k a per-codeword offset (the codeword's squared norm, where
  the programs use it). The score of codeword k at descriptor n is

      ((|x_n|^2 - 2 * <cw_k, x_n>) + cs k) * sc k ,

  the weights are the softmax of the scores over the codewords (shifted by their maximum, as both programs compute it),
  and the aggregate at (k, d) is

      sum_n assign k n * x d n  -  (sum_n assign k n) * cw k d .

  `encode` is the whole result: sample b, codeword k, coordinate d.
-/
import Idealize.ShloMosaic.PureOps.Ideal
import Idealize.ShloMosaic.Lib.ValueIdx

noncomputable section

namespace Cert.SoftAssign

open Idealize.ShloMosaic Idealize.ShloMosaic.ValueIdx

/-- Minus infinity and the number two, as the binary32 words both programs carry. -/
abbrev negInf : EReal := Ideal.ofBits .f32 0xFF800000#32
abbrev two : EReal := Ideal.ofBits .f32 0x40000000#32

/-- The squared norm of descriptor n. -/
def sqNorm (x : Fin 128 → Fin 4096 → EReal) (n : Fin 4096) : EReal := ∑ d : Fin 128, x d n * x d n

/-- The squared norm of codeword k. -/
def cwSq (cw : Fin 32 → Fin 128 → EReal) (k : Fin 32) : EReal := ∑ d : Fin 128, cw k d * cw k d

/-- The inner product of codeword k and descriptor n. -/
def cross (x : Fin 128 → Fin 4096 → EReal) (cw : Fin 32 → Fin 128 → EReal) (k : Fin 32) (n : Fin 4096) : EReal :=
  ∑ d : Fin 128, cw k d * x d n

/-- The scaled squared distance of descriptor n to codeword k, expanded. -/
def score (x : Fin 128 → Fin 4096 → EReal) (cw : Fin 32 → Fin 128 → EReal) (sc cs : Fin 32 → EReal) (k : Fin 32)
    (n : Fin 4096) : EReal :=
  ((sqNorm x n - two * cross x cw k n) + cs k) * sc k

/-- The largest score at descriptor n, over the codewords. -/
def peak (x : Fin 128 → Fin 4096 → EReal) (cw : Fin 32 → Fin 128 → EReal) (sc cs : Fin 32 → EReal) (n : Fin 4096) : EReal :=
  (Finset.univ : Finset (Fin 32)).fold max negInf (fun k => score x cw sc cs k n)

/-- The unnormalized weight of codeword k at descriptor n. -/
def weight (x : Fin 128 → Fin 4096 → EReal) (cw : Fin 32 → Fin 128 → EReal) (sc cs : Fin 32 → EReal) (k : Fin 32)
    (n : Fin 4096) : EReal :=
  Ideal.exp (score x cw sc cs k n - peak x cw sc cs n)

/-- The total weight at descriptor n. -/
def mass (x : Fin 128 → Fin 4096 → EReal) (cw : Fin 32 → Fin 128 → EReal) (sc cs : Fin 32 → EReal) (n : Fin 4096) : EReal :=
  ∑ k : Fin 32, weight x cw sc cs k n

/-- The soft assignment of descriptor n to codeword k. -/
def assign (x : Fin 128 → Fin 4096 → EReal) (cw : Fin 32 → Fin 128 → EReal) (sc cs : Fin 32 → EReal) (k : Fin 32)
    (n : Fin 4096) : EReal :=
  Ideal.div (weight x cw sc cs k n) (mass x cw sc cs n)

/-- The aggregated residual of codeword k, coordinate d. -/
def aggregate (x : Fin 128 → Fin 4096 → EReal) (cw : Fin 32 → Fin 128 → EReal) (sc cs : Fin 32 → EReal) (k : Fin 32)
    (d : Fin 128) : EReal :=
  (∑ n : Fin 4096, assign x cw sc cs k n * x d n) - (∑ n : Fin 4096, assign x cw sc cs k n) * cw k d

/-- The result at sample b, codeword k, coordinate d, from the descriptors laid out [8, 128, 4096], the codewords
    [32, 128] and the scales [32]. -/
def encodeAt (xr : (⟨3, ![8, 128, 4096]⟩ : Shape).Idx → EReal) (cw : (⟨2, ![32, 128]⟩ : Shape).Idx → EReal)
    (sc : (⟨1, ![32]⟩ : Shape).Idx → EReal) (b : Fin 8) (k : Fin 32) (d : Fin 128) : EReal :=
  aggregate (fun d n => xr (ix3 b d n)) (fun k d => cw (ix2 k d)) (fun k => sc (ix1 k))
    (cwSq fun k d => cw (ix2 k d)) k d

/-- The whole result array [8, 32, 128]. -/
def encode (xr : (⟨3, ![8, 128, 4096]⟩ : Shape).Idx → EReal) (cw : (⟨2, ![32, 128]⟩ : Shape).Idx → EReal)
    (sc : (⟨1, ![32]⟩ : Shape).Idx → EReal) : (⟨3, ![8, 32, 128]⟩ : Shape).Idx → EReal :=
  fun i => encodeAt xr cw sc (i 0) (i 1) (i 2)

theorem encode_ix3 (xr : (⟨3, ![8, 128, 4096]⟩ : Shape).Idx → EReal) (cw : (⟨2, ![32, 128]⟩ : Shape).Idx → EReal)
    (sc : (⟨1, ![32]⟩ : Shape).Idx → EReal) (b : Fin 8) (k : Fin 32) (d : Fin 128) :
    encode xr cw sc (ix3 b k d) = encodeAt xr cw sc b k d := rfl

end Cert.SoftAssign

end
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.LibColumnCast.lean ====
/-
  A vector of length a cast to a column of shape [a, 1] (what a sum over the last axis that keeps that axis produces),
  read at an index given by coordinates.
-/
import Idealize.ShloMosaic.Lib.ValueIdx
import Idealize.ShloMosaic.Lib.Pipeline.Value

namespace Cert.Lib.ColumnCast

open Idealize.ShloMosaic Idealize.ShloMosaic.ValueIdx

/-- A vector of length a cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.ColumnCast
-- ==== Proof.Body.lean ====
/-
  What one grid point of the kernel leaves in its output block, as one function of the block's index.

  The body handles the two samples of its block one after the other with the same arithmetic: for a sample's slab x
  (128 coordinates by 4096 descriptors), the codewords cw and the column of scales sc, it forms the scores
  ((|x_n|^2 - 2 <cw_k, x_n>) + |cw_k|^2) sc_k, their softmax over the codewords, and the aggregate
  sum_n a_kn x_dn - (sum_n a_kn) cw_kd. Each stage is named here as the body spells it, read at an index
  (a lane sum is a sum over the reduced axis, a product with a zero accumulator is the sum of products, a kept axis of
  extent one is dropped), and the stages are chained into `SoftAssign.aggregate`. The two stored pieces are then the
  two halves of one function of the output block's index.
-/
import proofs.«182063_j48919677501760_2_alg».proof.Proof.Gen.KernelIdeal.Frame
import proofs.«182063_j48919677501760_2_alg».proof.Proof.SoftAssign
import proofs.«182063_j48919677501760_2_alg».proof.Proof.LibAxisReductions
import proofs.«182063_j48919677501760_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.Lib.AxisReductions Cert.Lib.ColumnCast Cert.SoftAssign

/-! ## The two matrix products at an index -/

theorem crossLhs0 (i : S32x4096.Idx) (q : dot_S32x128_S128x4096_S32x4096_1_0_0_1_n_n.contr.Idx) :
    (dot_S32x128_S128x4096_S32x4096_1_0_0_1_n_n.lhsIdx i q 0).val = (i 0).val := by
  unfold DotDims.lhsIdx
  rw [dif_neg (show ¬(0 : Fin S32x128.rank) ∈ dot_S32x128_S128x4096_S32x4096_1_0_0_1_n_n.lhsBatch by decide), dif_pos (show (0 : Fin S32x128.rank) ∈ dot_S32x128_S128x4096_S32x4096_1_0_0_1_n_n.lhsNonContracting by decide)]
  rfl
theorem crossLhs1 (i : S32x4096.Idx) (q : dot_S32x128_S128x4096_S32x4096_1_0_0_1_n_n.contr.Idx) :
    (dot_S32x128_S128x4096_S32x4096_1_0_0_1_n_n.lhsIdx i q 1).val = (q ⟨0, by decide⟩).val :=
  dot_S32x128_S128x4096_S32x4096_1_0_0_1_n_n.lhsIdx_val_of_single rfl i q
theorem crossRhs0 (i : S32x4096.Idx) (q : dot_S32x128_S128x4096_S32x4096_1_0_0_1_n_n.contr.Idx) :
    (dot_S32x128_S128x4096_S32x4096_1_0_0_1_n_n.rhsIdx i q 0).val = (q ⟨0, by decide⟩).val :=
  dot_S32x128_S128x4096_S32x4096_1_0_0_1_n_n.rhsIdx_val_of_single rfl i q
theorem crossRhs1 (i : S32x4096.Idx) (q : dot_S32x128_S128x4096_S32x4096_1_0_0_1_n_n.contr.Idx) :
    (dot_S32x128_S128x4096_S32x4096_1_0_0_1_n_n.rhsIdx i q 1).val = (i 1).val := by
  unfold DotDims.rhsIdx
  rw [dif_neg (show ¬(1 : Fin S128x4096.rank) ∈ dot_S32x128_S128x4096_S32x4096_1_0_0_1_n_n.rhsBatch by decide), dif_pos (show (1 : Fin S128x4096.rank) ∈ dot_S32x128_S128x4096_S32x4096_1_0_0_1_n_n.rhsNonContracting by decide)]
  rfl

/-- Codewords times a slab, into a zero accumulator, at (k, n): the inner product of codeword k and descriptor n. -/
theorem cross_apply (cw : FVec Ideal S32x128 .f32) (x : FVec Ideal S128x4096 .f32) (k : Fin 32) (n : Fin 4096) :
    matmul dot_S32x128_S128x4096_S32x4096_1_0_0_1_n_n none cw x (constant (F := Ideal) S32x4096 .f32 0x00000000#32) (ix2 k n)
      = ∑ d : Fin 128, cw (ix2 k d) * x (ix2 d n) := by
  simp only [matmul]
  rw [Ideal.matmul_constant_zero_apply, ← Equiv.sum_comp (ValueIdx.contrEquiv1 dot_S32x128_S128x4096_S32x4096_1_0_0_1_n_n 128 rfl rfl).symm]
  refine Finset.sum_congr rfl fun d _ => ?_
  have hd := ValueIdx.contrEquiv1_symm_val dot_S32x128_S128x4096_S32x4096_1_0_0_1_n_n 128 rfl rfl d
  have el : dot_S32x128_S128x4096_S32x4096_1_0_0_1_n_n.lhsIdx (ix2 k n) ((ValueIdx.contrEquiv1 dot_S32x128_S128x4096_S32x4096_1_0_0_1_n_n 128 rfl rfl).symm d) = ix2 k d := funext fun a => Fin.ext (by
    match a with
    | ⟨0, _⟩ => exact crossLhs0 _ _
    | ⟨1, _⟩ => exact (crossLhs1 _ _).trans hd)
  have er : dot_S32x128_S128x4096_S32x4096_1_0_0_1_n_n.rhsIdx (ix2 k n) ((ValueIdx.contrEquiv1 dot_S32x128_S128x4096_S32x4096_1_0_0_1_n_n 128 rfl rfl).symm d) = ix2 d n := funext fun a => Fin.ext (by
    match a with
    | ⟨0, _⟩ => exact (crossRhs0 _ _).trans hd
    | ⟨1, _⟩ => exact crossRhs1 _ _)
  rw [el, er]

theorem gatherLhs0 (i : S32x128.Idx) (q : dot_S32x4096_S128x4096_S32x128_1_1_0_0_n_n.contr.Idx) :
    (dot_S32x4096_S128x4096_S32x128_1_1_0_0_n_n.lhsIdx i q 0).val = (i 0).val := by
  unfold DotDims.lhsIdx
  rw [dif_neg (show ¬(0 : Fin S32x4096.rank) ∈ dot_S32x4096_S128x4096_S32x128_1_1_0_0_n_n.lhsBatch by decide), dif_pos (show (0 : Fin S32x4096.rank) ∈ dot_S32x4096_S128x4096_S32x128_1_1_0_0_n_n.lhsNonContracting by decide)]
  rfl
theorem gatherLhs1 (i : S32x128.Idx) (q : dot_S32x4096_S128x4096_S32x128_1_1_0_0_n_n.contr.Idx) :
    (dot_S32x4096_S128x4096_S32x128_1_1_0_0_n_n.lhsIdx i q 1).val = (q ⟨0, by decide⟩).val :=
  dot_S32x4096_S128x4096_S32x128_1_1_0_0_n_n.lhsIdx_val_of_single rfl i q
theorem gatherRhs0 (i : S32x128.Idx) (q : dot_S32x4096_S128x4096_S32x128_1_1_0_0_n_n.contr.Idx) :
    (dot_S32x4096_S128x4096_S32x128_1_1_0_0_n_n.rhsIdx i q 0).val = (i 1).val := by
  unfold DotDims.rhsIdx
  rw [dif_neg (show ¬(0 : Fin S128x4096.rank) ∈ dot_S32x4096_S128x4096_S32x128_1_1_0_0_n_n.rhsBatch by decide), dif_pos (show (0 : Fin S128x4096.rank) ∈ dot_S32x4096_S128x4096_S32x128_1_1_0_0_n_n.rhsNonContracting by decide)]
  rfl
theorem gatherRhs1 (i : S32x128.Idx) (q : dot_S32x4096_S128x4096_S32x128_1_1_0_0_n_n.contr.Idx) :
    (dot_S32x4096_S128x4096_S32x128_1_1_0_0_n_n.rhsIdx i q 1).val = (q ⟨0, by decide⟩).val :=
  dot_S32x4096_S128x4096_S32x128_1_1_0_0_n_n.rhsIdx_val_of_single rfl i q

/-- Assignments times a slab, contracted over the descriptors, into a zero accumulator, at (k, d). -/
theorem gather_apply (A : FVec Ideal S32x4096 .f32) (x : FVec Ideal S128x4096 .f32) (k : Fin 32) (d : Fin 128) :
    matmul dot_S32x4096_S128x4096_S32x128_1_1_0_0_n_n none A x (constant (F := Ideal) S32x128 .f32 0x00000000#32) (ix2 k d)
      = ∑ n : Fin 4096, A (ix2 k n) * x (ix2 d n) := by
  simp only [matmul]
  rw [Ideal.matmul_constant_zero_apply, ← Equiv.sum_comp (ValueIdx.contrEquiv1 dot_S32x4096_S128x4096_S32x128_1_1_0_0_n_n 4096 rfl rfl).symm]
  refine Finset.sum_congr rfl fun n _ => ?_
  have hn := ValueIdx.contrEquiv1_symm_val dot_S32x4096_S128x4096_S32x128_1_1_0_0_n_n 4096 rfl rfl n
  have el : dot_S32x4096_S128x4096_S32x128_1_1_0_0_n_n.lhsIdx (ix2 k d) ((ValueIdx.contrEquiv1 dot_S32x4096_S128x4096_S32x128_1_1_0_0_n_n 4096 rfl rfl).symm n) = ix2 k n := funext fun a => Fin.ext (by
    match a with
    | ⟨0, _⟩ => exact gatherLhs0 _ _
    | ⟨1, _⟩ => exact (gatherLhs1 _ _).trans hn)
  have er : dot_S32x4096_S128x4096_S32x128_1_1_0_0_n_n.rhsIdx (ix2 k d) ((ValueIdx.contrEquiv1 dot_S32x4096_S128x4096_S32x128_1_1_0_0_n_n 4096 rfl rfl).symm n) = ix2 d n := funext fun a => Fin.ext (by
    match a with
    | ⟨0, _⟩ => exact gatherRhs0 _ _
    | ⟨1, _⟩ => exact (gatherRhs1 _ _).trans hn)
  rw [el, er]

/-! ## Reductions that keep their axis, spread back over it -/

/-- The sum down a slab's 128 rows, kept as one row and spread over the 32 codewords, at (k, n). -/
theorem spreadSum128 (v : FVec Ideal S128x4096 .f32) (k : Fin 32) (n : Fin 4096) :
    broadcastTo S32x4096 (shapeCast S1x4096 (multiReduction .add [0] S4096 v 0x00000000#32 reduces_S128x4096_S4096 (.inl rfl) rfl) shapeCasts_S4096_S1x4096) broadcasts_S1x4096_S32x4096 (ix2 k n)
      = ∑ d : Fin 128, v (ix2 d n) :=
  (broadcastTo_1b_ab_apply _ _ k n).trans ((shapeCast_a_1a_apply _ _ (0 : Fin 1) n).trans (sum_rows_apply v _ _ _ _ n))

/-- The sum over the 32 codewords, kept as one row and spread back over them, at (k, n). -/
theorem spreadSum32 (v : FVec Ideal S32x4096 .f32) (k : Fin 32) (n : Fin 4096) :
    broadcastTo S32x4096 (shapeCast S1x4096 (multiReduction .add [0] S4096 v 0x00000000#32 reduces_S32x4096_S4096 (.inl rfl) rfl) shapeCasts_S4096_S1x4096) broadcasts_S1x4096_S32x4096 (ix2 k n)
      = ∑ j : Fin 32, v (ix2 j n) :=
  (broadcastTo_1b_ab_apply _ _ k n).trans ((shapeCast_a_1a_apply _ _ (0 : Fin 1) n).trans (sum_rows_apply v _ _ _ _ n))

/-- The maximum over the 32 codewords, kept as one row and spread back over them, at (k, n). -/
theorem spreadMax32 (v : FVec Ideal S32x4096 .f32) (k : Fin 32) (n : Fin 4096) :
    broadcastTo S32x4096 (shapeCast S1x4096 (multiReduction .maximumf [0] S4096 v 0xFF800000#32 reduces_S32x4096_S4096 (.inl rfl) rfl) shapeCasts_S4096_S1x4096) broadcasts_S1x4096_S32x4096 (ix2 k n)
      = (Finset.univ : Finset (Fin 32)).fold max negInf (fun j => v (ix2 j n)) :=
  (broadcastTo_1b_ab_apply _ _ k n).trans ((shapeCast_a_1a_apply _ _ (0 : Fin 1) n).trans (max_rows_apply v _ _ _ _ n))

/-- The sum over the 4096 descriptors, kept as a column and spread over the 128 coordinates, at (k, d). -/
theorem spreadSum4096 (v : FVec Ideal S32x4096 .f32) (k : Fin 32) (d : Fin 128) :
    broadcastTo S32x128 (shapeCast S32x1 (multiReduction .add [1] S32 v 0x00000000#32 reduces_S32x4096_S32 (.inl rfl) rfl) shapeCasts_S32_S32x1) broadcasts_S32x1_S32x128 (ix2 k d)
      = ∑ n : Fin 4096, v (ix2 k n) :=
  (broadcastTo_a1_ab_apply _ _ k d).trans ((shapeCast_a_a1_apply _ _ k (0 : Fin 1)).trans (sum_cols_apply v _ _ _ _ k))

/-! ## The body's stages, as it spells them -/

/-- A sample's slab [1, 128, 4096] as a matrix. -/
def slabMat (slab : FVec Ideal S1x128x4096 .f32) : FVec Ideal S128x4096 .f32 :=
  shapeCast S128x4096 slab shapeCasts_S1x128x4096_S128x4096

/-- The scores [32, 4096] from the codewords, the columns of scales and of offsets, and a slab. -/
def scoresV (cw : FVec Ideal S32x128 .f32) (sc cs : FVec Ideal S32x1 .f32) (x : FVec Ideal S128x4096 .f32) : FVec Ideal S32x4096 .f32 :=
  mulf (addf (subf
        (broadcastTo S32x4096 (shapeCast S1x4096 (multiReduction .add [0] S4096 (mulf x x) 0x00000000#32 reduces_S128x4096_S4096 (.inl rfl) rfl) shapeCasts_S4096_S1x4096) broadcasts_S1x4096_S32x4096)
        (mulf (broadcast S32x4096 (Scalar.ofBits .f32 0x40000000#32)) (matmul dot_S32x128_S128x4096_S32x4096_1_0_0_1_n_n none cw x (constant S32x4096 .f32 0x00000000#32))))
      (broadcastTo S32x4096 cs broadcasts_S32x1_S32x4096))
    (broadcastTo S32x4096 sc broadcasts_S32x1_S32x4096)

/-- The unnormalized weights: the exponential of the scores less their maximum over the codewords. -/
def weightsV (lg : FVec Ideal S32x4096 .f32) : FVec Ideal S32x4096 .f32 :=
  exp (subf lg (broadcastTo S32x4096 (shapeCast S1x4096 (multiReduction .maximumf [0] S4096 lg 0xFF800000#32 reduces_S32x4096_S4096 (.inl rfl) rfl) shapeCasts_S4096_S1x4096) broadcasts_S1x4096_S32x4096))

/-- The assignments: the weights over their sum over the codewords. -/
def assignV (p : FVec Ideal S32x4096 .f32) : FVec Ideal S32x4096 .f32 :=
  divf p (broadcastTo S32x4096 (shapeCast S1x4096 (multiReduction .add [0] S4096 p 0x00000000#32 reduces_S32x4096_S4096 (.inl rfl) rfl) shapeCasts_S4096_S1x4096) broadcasts_S1x4096_S32x4096)

/-- The aggregate [32, 128] from the codewords, the assignments and the slab. -/
def aggregateV (cw : FVec Ideal S32x128 .f32) (A : FVec Ideal S32x4096 .f32) (x : FVec Ideal S128x4096 .f32) : FVec Ideal S32x128 .f32 :=
  subf (matmul dot_S32x4096_S128x4096_S32x128_1_1_0_0_n_n none A x (constant S32x128 .f32 0x00000000#32))
    (mulf (broadcastTo S32x128 (shapeCast S32x1 (multiReduction .add [1] S32 A 0x00000000#32 reduces_S32x4096_S32 (.inl rfl) rfl) shapeCasts_S32_S32x1) broadcasts_S32x1_S32x128) cw)

/-- The second sample's stored value is these stages, composed. -/
theorem pay1_eq (cw : Vec Ideal S32x128 .f32) (sc cs : FVec Ideal S32x1 .f32) (slab : Vec Ideal S1x128x4096 .f32) :
    k0_pay1 (F := Ideal) cw sc cs slab
      = shapeCast S1x32x128 (aggregateV cw (assignV (weightsV (scoresV cw sc cs (slabMat slab)))) (slabMat slab)) shapeCasts_S32x128_S1x32x128 := rfl

/-- The first sample's stored value is the same function, of the scales as loaded and the codewords' squared norms. -/
theorem pay4_eq (cw : Vec Ideal S32x128 .f32) (sc : Vec Ideal S32x1 .f32) (slab : Vec Ideal S1x128x4096 .f32) :
    k0_pay4 (F := Ideal) cw sc slab = k0_pay1 (F := Ideal) cw (k0_pay2 sc) (k0_pay3 cw) slab := rfl

/-! ## The stages at an index -/

theorem slabMat_apply (slab : FVec Ideal S1x128x4096 .f32) (d : Fin 128) (n : Fin 4096) :
    slabMat slab (ix2 d n) = slab (ix3 (0 : Fin 1) d n) :=
  shapeCast_1ab_ab_apply slab shapeCasts_S1x128x4096_S128x4096 d n

theorem scoresV_apply (cw : FVec Ideal S32x128 .f32) (sc cs : FVec Ideal S32x1 .f32) (x : FVec Ideal S128x4096 .f32)
    (k : Fin 32) (n : Fin 4096) :
    scoresV cw sc cs x (ix2 k n)
      = ((∑ d : Fin 128, x (ix2 d n) * x (ix2 d n)) - two * (∑ d : Fin 128, cw (ix2 k d) * x (ix2 d n))
          + cs (ix2 k (0 : Fin 1))) * sc (ix2 k (0 : Fin 1)) := by
  unfold scoresV
  simp only [mulf_apply, addf_apply, subf_apply, broadcast_apply]
  rw [spreadSum128, cross_apply, broadcastTo_a1_ab_apply, broadcastTo_a1_ab_apply]
  rfl

theorem weightsV_apply (lg : FVec Ideal S32x4096 .f32) (k : Fin 32) (n : Fin 4096) :
    weightsV lg (ix2 k n)
      = Ideal.exp (lg (ix2 k n) - (Finset.univ : Finset (Fin 32)).fold max negInf (fun j => lg (ix2 j n))) :=
  congrArg (fun z => Ideal.exp (lg (ix2 k n) - z)) (spreadMax32 lg k n)

theorem assignV_apply (p : FVec Ideal S32x4096 .f32) (k : Fin 32) (n : Fin 4096) :
    assignV p (ix2 k n) = Ideal.div (p (ix2 k n)) (∑ j : Fin 32, p (ix2 j n)) :=
  congrArg (fun z => Ideal.div (p (ix2 k n)) z) (spreadSum32 p k n)

theorem aggregateV_apply (cw : FVec Ideal S32x128 .f32) (A : FVec Ideal S32x4096 .f32) (x : FVec Ideal S128x4096 .f32)
    (k : Fin 32) (d : Fin 128) :
    aggregateV cw A x (ix2 k d)
      = (∑ n : Fin 4096, A (ix2 k n) * x (ix2 d n)) - (∑ n : Fin 4096, A (ix2 k n)) * cw (ix2 k d) :=
  congrArg₂ (fun a b => a - b * cw (ix2 k d)) (gather_apply A x k d) (spreadSum4096 A k d)

/-- The stored value of one sample at (u, k, d): the aggregate of the slab's descriptors. -/
theorem pay1_apply (cw : Vec Ideal S32x128 .f32) (sc cs : FVec Ideal S32x1 .f32) (slab : Vec Ideal S1x128x4096 .f32)
    (u : Fin 1) (k : Fin 32) (d : Fin 128) :
    k0_pay1 (F := Ideal) cw sc cs slab (ix3 u k d)
      = aggregate (fun d n => slab (ix3 (0 : Fin 1) d n)) (fun k d => cw (ix2 k d)) (fun k => sc (ix2 k (0 : Fin 1)))
          (fun k => cs (ix2 k (0 : Fin 1))) k d := by
  rw [pay1_eq]
  refine (shapeCast_ab_1ab_apply _ shapeCasts_S32x128_S1x32x128 u k d).trans ?_
  rw [aggregateV_apply]
  unfold aggregate assign mass weight peak score sqNorm cross
  simp only [assignV_apply, weightsV_apply, scoresV_apply, slabMat_apply]

/-- The scales as the body reads them: the loaded column. -/
theorem pay2_apply (sc : Vec Ideal S32x1 .f32) (k : Fin 32) : k0_pay2 (F := Ideal) sc (ix2 k (0 : Fin 1)) = sc (ix2 k (0 : Fin 1)) :=
  congrFun (shapeCast_self sc shapeCasts_S32x1_S32x1) _

/-- The codewords' squared norms as the body computes them. -/
theorem pay3_apply (cw : Vec Ideal S32x128 .f32) (k : Fin 32) :
    k0_pay3 (F := Ideal) cw (ix2 k (0 : Fin 1)) = cwSq (fun k d => cw (ix2 k d)) k :=
  (shapeCast_a_a1_apply _ shapeCasts_S32_S32x1 k (0 : Fin 1)).trans (sum_cols_apply (mulf cw cw) _ _ _ _ k)

end Cert.KernelIdeal.Body

end
-- ==== Proof.Blocks.lean ====
/-
  From what one grid point writes back to the whole result array.

  A grid point t handles samples 2t and 2t + 1: its descriptor block is rows 2t, 2t + 1 of the re-laid descriptors, its
  codeword and scale blocks are the whole arrays, and its output block is rows 2t, 2t + 1 of the result. The body's two
  stored pieces are the two rows of one function of the output block's index (`blockOut`), which is the whole-array
  function `SoftAssign.encode` read through the block; the four blocks cover the result, so the array the run leaves is
  `encode` of the arrays the region finds, and those are the arguments re-laid: the descriptors [8, 128, 64, 64] as
  [8, 128, 4096] and the scales [32] as a column [32, 1].
-/
import proofs.«182063_j48919677501760_2_alg».proof.Proof.Gen.KernelIdeal.Value
import proofs.«182063_j48919677501760_2_alg».proof.Proof.Body
import Idealize.ShloMosaic.Lib.StableHlo.Run
import Idealize.ShloMosaic.Lib.Pipeline.Value

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)
open Cert.SoftAssign Cert.Lib.ColumnCast

/-! ## The output block as one function of its index -/

/-- The output block [2, 32, 128] from the three input blocks: row s is the aggregate of the descriptor block's row s. -/
def blockOut (x0 : Vec Ideal S2x128x4096 .f32) (x1 : Vec Ideal S32x128 .f32) (x2 : Vec Ideal S32x1 .f32) :
    Vec Ideal S2x32x128 .f32 := fun y =>
  aggregate (fun d n => x0 (ix3 (n0 := 2) (y 0) d n)) (fun k d => x1 (ix2 k d)) (fun k => x2 (ix2 k (0 : Fin 1)))
    (cwSq fun k d => x1 (ix2 k d)) (y 1) (y 2)

theorem blockOut_ix3 (x0 : Vec Ideal S2x128x4096 .f32) (x1 : Vec Ideal S32x128 .f32) (x2 : Vec Ideal S32x1 .f32)
    (s : Fin 2) (k : Fin 32) (d : Fin 128) :
    blockOut x0 x1 x2 (ix3 s k d)
      = aggregate (fun d n => x0 (ix3 s d n)) (fun k d => x1 (ix2 k d)) (fun k => x2 (ix2 k (0 : Fin 1)))
          (cwSq fun k d => x1 (ix2 k d)) k d := rfl

theorem zeros2 : (![0, 0] : Fin 2 → Nat) = fun _ => 0 := funext fun a => by fin_cases a <;> rfl

/-- The codewords and the scales are loaded whole. -/
theorem ld_cw (x1 : Vec Ideal S32x128 .f32) : View.ld x1 r0_0 = x1 := View.ld_unit_zero (S := S32x128) zeros2 _ x1
theorem ld_sc (x2 : Vec Ideal S32x1 .f32) : View.ld x2 r0_1 = x2 := View.ld_unit_zero (S := S32x1) zeros2 _ x2

/-- The first sample's slab is row 0 of the descriptor block, the second's row 1. -/
theorem ld_slab0 (x0 : Vec Ideal S2x128x4096 .f32) (d : Fin 128) (n : Fin 4096) :
    View.ld x0 r0_2 (ix3 (0 : Fin 1) d n) = x0 (ix3 (0 : Fin 2) d n) :=
  congrArg x0 (funext fun a => Fin.ext (by
    match a with
    | ⟨0, _⟩ => rfl
    | ⟨1, _⟩ => show 0 + 1 * d.val = d.val; omega
    | ⟨2, _⟩ => show 0 + 1 * n.val = n.val; omega))
theorem ld_slab1 (x0 : Vec Ideal S2x128x4096 .f32) (d : Fin 128) (n : Fin 4096) :
    View.ld x0 r0_4 (ix3 (0 : Fin 1) d n) = x0 (ix3 (1 : Fin 2) d n) :=
  congrArg x0 (funext fun a => Fin.ext (by
    match a with
    | ⟨0, _⟩ => rfl
    | ⟨1, _⟩ => show 0 + 1 * d.val = d.val; omega
    | ⟨2, _⟩ => show 0 + 1 * n.val = n.val; omega))

/-- The piece stored second (the block's row 1) is `blockOut` on its rectangle. -/
theorem piece_row1 (x0 : Vec Ideal S2x128x4096 .f32) (x1 : Vec Ideal S32x128 .f32) (x2 : Vec Ideal S32x1 .f32)
    (x : S1x32x128.Idx) :
    k0_pay1 (F := Ideal) (View.ld x1 r0_0) (k0_pay2 (View.ld x2 r0_1)) (k0_pay3 (View.ld x1 r0_0)) (View.ld x0 r0_4) x
      = blockOut x0 x1 x2 (r0_5.emb x) := by
  obtain ⟨u, k, d, rfl⟩ : ∃ (u : Fin 1) (k : Fin 32) (d : Fin 128), x = ix3 u k d := ⟨x 0, x 1, x 2, eq_ix3 x⟩
  have hu : u.val = 0 := by omega
  have he : r0_5.emb (ix3 u k d) = ix3 (1 : Fin 2) k d := funext fun a => Fin.ext (by
    match a with
    | ⟨0, _⟩ => show 1 + 1 * u.val = 1; omega
    | ⟨1, _⟩ => show 0 + 1 * k.val = k.val; omega
    | ⟨2, _⟩ => show 0 + 1 * d.val = d.val; omega)
  rw [he, ld_cw, ld_sc, blockOut_ix3]
  refine (pay1_apply _ _ _ _ u k d).trans ?_
  simp only [pay2_apply, pay3_apply]
  exact congrArg (fun F => aggregate F (fun k d => x1 (ix2 k d)) (fun k => x2 (ix2 k (0 : Fin 1)))
    (cwSq fun k d => x1 (ix2 k d)) k d) (funext fun d => funext fun n => ld_slab1 x0 d n)

/-- The piece stored first (the block's row 0) likewise. -/
theorem piece_row0 (x0 : Vec Ideal S2x128x4096 .f32) (x1 : Vec Ideal S32x128 .f32) (x2 : Vec Ideal S32x1 .f32)
    (x : S1x32x128.Idx) :
    k0_pay4 (F := Ideal) (View.ld x1 r0_0) (View.ld x2 r0_1) (View.ld x0 r0_2) x = blockOut x0 x1 x2 (r0_3.emb x) := by
  obtain ⟨u, k, d, rfl⟩ : ∃ (u : Fin 1) (k : Fin 32) (d : Fin 128), x = ix3 u k d := ⟨x 0, x 1, x 2, eq_ix3 x⟩
  have hu : u.val = 0 := by omega
  have he : r0_3.emb (ix3 u k d) = ix3 (0 : Fin 2) k d := funext fun a => Fin.ext (by
    match a with
    | ⟨0, _⟩ => show 0 + 1 * u.val = 0; omega
    | ⟨1, _⟩ => show 0 + 1 * k.val = k.val; omega
    | ⟨2, _⟩ => show 0 + 1 * d.val = d.val; omega)
  rw [he, pay4_eq, ld_cw, ld_sc, blockOut_ix3]
  refine (pay1_apply _ _ _ _ u k d).trans ?_
  simp only [pay2_apply, pay3_apply]
  exact congrArg (fun F => aggregate F (fun k d => x1 (ix2 k d)) (fun k => x2 (ix2 k (0 : Fin 1)))
    (cwSq fun k d => x1 (ix2 k d)) k d) (funext fun d => funext fun n => ld_slab0 x0 d n)

/-- What the body leaves in the output block: `blockOut` of the input blocks. -/
theorem out0_3_eq (x0 : Vec Ideal S2x128x4096 .f32) (x1 : Vec Ideal S32x128 .f32) (x2 : Vec Ideal S32x1 .f32) :
    out0_3 (F := Ideal) x0 x1 x2 = blockOut x0 x1 x2 := by
  funext y
  unfold out0_3
  refine View.canon_apply_of_pieces (blockOut x0 x1 x2) _ ?_ y (cover0_3 _ _ y)
  intro p hp x
  simp only [List.mem_cons, List.not_mem_nil, or_false] at hp
  rcases hp with rfl | rfl
  · exact piece_row1 x0 x1 x2 x
  · exact piece_row0 x0 x1 x2 x

/-! ## A block of the whole-array function -/

/-- If the descriptor block is rows 2q, 2q + 1 of the descriptors and the other two blocks are the whole codewords and
    scales, `blockOut` at a block index is `encode` at the array index two rows down per block. -/
theorem blockOut_eq_encode (xr : S8x128x4096.Idx → EReal) (cwA : S32x128.Idx → EReal) (scA : S32x1.Idx → EReal)
    (x0 : Vec Ideal S2x128x4096 .f32) (x1 : Vec Ideal S32x128 .f32) (x2 : Vec Ideal S32x1 .f32) (q : ℕ)
    (h0 : ∀ (y : S2x128x4096.Idx) (i : S8x128x4096.Idx), (i 0).val = q * 2 + (y 0).val → (i 1).val = (y 1).val →
      (i 2).val = (y 2).val → x0 y = xr i)
    (h1 : x1 = cwA) (h2 : x2 = scA) (j : S2x32x128.Idx) (i : S8x32x128.Idx) (e0 : (i 0).val = q * 2 + (j 0).val)
    (e1 : (i 1).val = (j 1).val) (e2 : (i 2).val = (j 2).val) :
    blockOut x0 x1 x2 j = encode xr cwA (fun k => scA (ix2 (n0 := 32) (k 0) (0 : Fin 1))) i := by
  subst h1 h2
  obtain ⟨b, k, d, rfl⟩ : ∃ (b : Fin 8) (k : Fin 32) (d : Fin 128), i = ix3 b k d := ⟨i 0, i 1, i 2, eq_ix3 i⟩
  obtain ⟨s, k', d', rfl⟩ : ∃ (s : Fin 2) (k' : Fin 32) (d' : Fin 128), j = ix3 s k' d' := ⟨j 0, j 1, j 2, eq_ix3 j⟩
  have hk : k' = k := Fin.ext e1.symm
  have hd : d' = d := Fin.ext e2.symm
  subst hk hd
  have hx : (fun (d : Fin 128) (n : Fin 4096) => x0 (ix3 s d n)) = fun d n => xr (ix3 b d n) :=
    funext fun d => funext fun n => h0 _ _ e0 rfl rfl
  rw [blockOut_ix3, hx]
  rfl

/-! ## The grid: index maps, what a point writes back, the cover -/

variable (m : (ℓ : Loc nD τ sig) → Buf (Elt Ideal) ℓ) (ρ : Dev nD → PrngReg)

/-- The result from the arrays as the region finds them: the re-laid descriptors, the codewords, the column of scales. -/
def regionResult (c : Dev nD) : S8x32x128.Idx → EReal :=
  encode (V m c main_v0) (V m c main_arg1) (fun k => V m c main_v1 (ix2 (n0 := 32) (k 0) (0 : Fin 1)))

/-- The printed index maps over the grid: the descriptor and output windows move together along the sample axis, one
    block per point; every other block index is zero. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) = t.val :=
  (by decide +kernel : ∀ t : Fin grid0.N, _)

/-- What point t writes back is block t of `regionResult`. -/
theorem flushed_eq (c : Dev nD) (t : Fin cfg0.N) :
    (dats m 0 c).flushed 3 t = ((cfg0.win 3).blk t).view.read (Elt Ideal) (regionResult m c) := by
  rw [Value.flushed3, out0_3_eq (iblk m c 0 t) (iblk m c 1 t) (iblk m c 2 t)]
  obtain ⟨f00, f01, f02, f10, f11, f20, f21, f31, f32, f30⟩ := idx_facts t
  funext j
  show blockOut (iblk m c 0 t) (iblk m c 1 t) (iblk m c 2 t) j = regionResult m c (((cfg0.win 3).blk t).view.emb j)
  refine blockOut_eq_encode (V m c main_v0) (V m c main_arg1) (V m c main_v1) (iblk m c 0 t) (iblk m c 1 t) (iblk m c 2 t)
    (win0_3.index t (0 : Fin 3)) ?_ ?_ ?_ j (((cfg0.win 3).blk t).view.emb j) ?_ ?_ ?_
  · intro y i e0 e1 e2
    show V m c main_v0 (((cfg0.win 0).blk t).view.emb y) = V m c main_v0 i
    refine congrArg (V m c main_v0) (funext fun a => Fin.ext ?_)
    match a with
    | ⟨0, _⟩ => show win0_0.index t (0 : Fin 3) * 2 + 1 * (y 0).val = (i 0).val; omega
    | ⟨1, _⟩ => show win0_0.index t (1 : Fin 3) * 128 + 1 * (y 1).val = (i 1).val; omega
    | ⟨2, _⟩ => show win0_0.index t (2 : Fin 3) * 4096 + 1 * (y 2).val = (i 2).val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 32 + 1 * (y 0).val = (y 0).val; omega
    | ⟨1, _⟩ => show win0_1.index t (1 : Fin 2) * 128 + 1 * (y 1).val = (y 1).val; omega
  · funext y
    show V m c main_v1 (((cfg0.win 2).blk t).view.emb y) = V m c main_v1 y
    refine congrArg (V m c main_v1) (funext fun a => Fin.ext ?_)
    match a with
    | ⟨0, _⟩ => show win0_2.index t (0 : Fin 2) * 32 + 1 * (y 0).val = (y 0).val; omega
    | ⟨1, _⟩ => show win0_2.index t (1 : Fin 2) * 1 + 1 * (y 1).val = (y 1).val; omega
  · show win0_3.index t (0 : Fin 3) * 2 + 1 * (j 0).val = win0_3.index t (0 : Fin 3) * 2 + (j 0).val; omega
  · show win0_3.index t (1 : Fin 3) * 32 + 1 * (j 1).val = (j 1).val; omega
  · show win0_3.index t (2 : Fin 3) * 128 + 1 * (j 2).val = (j 2).val; omega

/-- An index of the result is in point t's block iff each coordinate is in the block's range on its axis. -/
theorem mem_blk (t : Fin cfg0.N) (i : S8x32x128.Idx) :
    i ∈ ((cfg0.win 3).blk t).view.set ↔ ∀ a : Fin 3, win0_3.index t a * S2x32x128.size a ≤ (i a).val
      ∧ (i a).val < win0_3.index t a * S2x32x128.size a + S2x32x128.size a := by
  show i ∈ ((View.whole main_v2).slice (win0_3.rect t)).set ↔ _
  rw [View.set_slice_whole, Rect.mem_set_unit]
  exact Iff.rfl

/-- Every index of the result is in some point's block: sample b is in the block of point b / 2. -/
theorem cover (i : S8x32x128.Idx) :
    ∃ t : Fin cfg0.N, (cfg0.win 3).flush t = true ∧ i ∈ ((cfg0.win 3).blk t).view.set := by
  have hi0 : (i 0).val < 8 := (i 0).isLt
  have hi1 : (i 1).val < 32 := (i 1).isLt
  have hi2 : (i 2).val < 128 := (i 2).isLt
  obtain ⟨t, ht⟩ : ∃ t : Fin cfg0.N, t.val = (i 0).val / 2 :=
    ⟨⟨(i 0).val / 2, by show (i 0).val / 2 < grid0.N; rw [N_0]; omega⟩, rfl⟩
  obtain ⟨-, -, -, -, -, -, -, f31, f32, f30⟩ := idx_facts t
  refine ⟨t, flush0_3 t, ?_⟩
  rw [mem_blk]
  intro a
  match a with
  | ⟨0, _⟩ =>
    show win0_3.index t (0 : Fin 3) * 2 ≤ (i 0).val ∧ (i 0).val < win0_3.index t (0 : Fin 3) * 2 + 2
    omega
  | ⟨1, _⟩ =>
    show win0_3.index t (1 : Fin 3) * 32 ≤ (i 1).val ∧ (i 1).val < win0_3.index t (1 : Fin 3) * 32 + 32
    omega
  | ⟨2, _⟩ =>
    show win0_3.index t (2 : Fin 3) * 128 ≤ (i 2).val ∧ (i 2).val < win0_3.index t (2 : Fin 3) * 128 + 128
    omega

/-- The result array after the run. -/
theorem final (c : Dev nD) : (dats m 0 c).arrAt 3 cfg0.N = regionResult m c :=
  (dats m 0 c).arrAt_eq_of_cover 3 (regionResult m c) (fun t _ => flushed_eq m c t) cover

/-! ## The arrays the region finds, from the arguments -/

/-- The descriptors as the region finds them: the argument [8, 128, 64, 64] re-laid [8, 128, 4096]. -/
theorem V_descriptors (c : Dev nD) :
    (V m c main_v0 : S8x128x4096.Idx → EReal)
      = shapeCast S8x128x4096 (m ((c : Thread nD τ).loc main_arg0)) shapeCasts_S8x128x64x64_S8x128x4096 := by
  dsimp only [Gen.V, Gen.hostOps0]; after_results; rfl

/-- The scales as the region finds them: the argument [32] as a column [32, 1]. -/
theorem V_scales (c : Dev nD) :
    (V m c main_v1 : S32x1.Idx → EReal) = shapeCast S32x1 (m ((c : Thread nD τ).loc main_arg2)) shapeCasts_S32_S32x1 := by
  dsimp only [Gen.V, Gen.hostOps0]; after_results; rfl

/-- So the result is `encode` of the re-laid descriptor argument, the codeword argument and the scale argument. -/
theorem regionResult_eq (c : Dev nD) :
    regionResult m c
      = encode (shapeCast S8x128x4096 (m ((c : Thread nD τ).loc main_arg0)) shapeCasts_S8x128x64x64_S8x128x4096)
          (m ((c : Thread nD τ).loc main_arg1)) (m ((c : Thread nD τ).loc main_arg2)) := by
  unfold regionResult
  rw [V_descriptors, V_main_arg1, V_scales]
  refine congrArg (encode _ _) (funext fun k => ?_)
  exact (shapeCast_a_a1_apply _ shapeCasts_S32_S32x1 (k 0) (0 : Fin 1)).trans
    (congrArg (m ((c : Thread nD τ).loc main_arg2)) (eq_ix1 k).symm)

/-! ## The run, with the result array named -/

theorem run : θ_run defs (onTc (τ := τ) (main (F := Ideal))) ⟨m, fun _ => 0, ρ⟩ fun r => ∀ c : Dev nD,
      r.2.mem ((c : Thread nD τ).loc main_v2)
        = encode (shapeCast S8x128x4096 (m ((c : Thread nD τ).loc main_arg0)) shapeCasts_S8x128x64x64_S8x128x4096)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (regionResult_eq m c)), (h c).2⟩)
    (Value.run_blocks m ρ)

end Cert.KernelIdeal.Blocks

end
-- ==== Proof.Reference.lean ====
/-
  The reference computes the soft-assignment aggregate: its result array is `SoftAssign.encode` of the descriptors laid out
  [8, 128, 4096], the codewords and the scales.

  The reference works on the transposed layout [8, 4096, 128]; read at an index, each of its operations is the
  corresponding stage of `SoftAssign` at sample b: the squared norms, the inner products (with the factors in the other
  order: products of extended reals commute), the scores, their maximum over the codewords (a second maximum with minus
  infinity changes nothing), the exponentials, their sum, the quotient, and the two sums over the descriptors.
-/
import proofs.«182063_j48919677501760_2_alg».proof.Proof.Gen.ReferenceIdeal.Read
import proofs.«182063_j48919677501760_2_alg».proof.Proof.SoftAssign
import proofs.«182063_j48919677501760_2_alg».proof.Proof.LibAxisReductions
import Idealize.ShloMosaic.Lib.ValueIdx
import Idealize.ShloMosaic.PureOps.Ideal.Laws

noncomputable section

namespace Cert.ReferenceIdeal.Spec

open Cert.ReferenceIdeal Cert.ReferenceIdeal.Gen Cert.ReferenceIdeal.Read Idealize.ShloMosaic Idealize.ShloMosaic.ValueIdx
open Cert.Lib.AxisReductions Cert.SoftAssign

variable (X : (⟨S8x128x64x64, .f32⟩ : BufTy).Contents (Elt Ideal)) (cw : (⟨S32x128, .f32⟩ : BufTy).Contents (Elt Ideal))
  (sc : (⟨S32, .f32⟩ : BufTy).Contents (Elt Ideal))

/-- Sample b's descriptors, the codewords and the scales by coordinates. -/
abbrev xs (b : Fin 8) : Fin 128 → Fin 4096 → EReal := fun d n => val_main_v0 (F := Ideal) X (ix3 b d n)
abbrev cws : Fin 32 → Fin 128 → EReal := fun k d => cw (ix2 k d)
abbrev scs : Fin 32 → EReal := fun k => sc (ix1 k)
abbrev css : Fin 32 → EReal := cwSq (cws cw)

theorem zero_word : (val_main_cst (F := Ideal)) (Shape.Idx.first h_S_) = (0 : EReal) := Ideal.ofBits_zero_f32
theorem zero_word0 : (val_main_cst_0 (F := Ideal)) (Shape.Idx.first h_S_) = (0 : EReal) := Ideal.ofBits_zero_f32
theorem zero_word4 : (val_main_cst_4 (F := Ideal)) (Shape.Idx.first h_S_) = (0 : EReal) := Ideal.ofBits_zero_f32
theorem zero_word5 : (val_main_cst_5 (F := Ideal)) (Shape.Idx.first h_S_) = (0 : EReal) := Ideal.ofBits_zero_f32

/-! ## The transposed descriptors and their squared norms -/

theorem v1_at (b : Fin 8) (n : Fin 4096) (d : Fin 128) :
    val_main_v1 (F := Ideal) X (ix3 b n d) = xs X b d n :=
  (val_main_v1_apply X _).trans (congrArg (val_main_v0 (F := Ideal) X) (funext fun a => Fin.ext (by match a with | ⟨0, _⟩ => rfl | ⟨1, _⟩ => rfl | ⟨2, _⟩ => rfl)))

theorem v2_at (b : Fin 8) (n : Fin 4096) (d : Fin 128) :
    val_main_v2 (F := Ideal) X (ix3 b n d) = xs X b d n * xs X b d n := by
  rw [val_main_v2_apply, v1_at]; rfl

theorem v3_at (b : Fin 8) (n : Fin 4096) : val_main_v3 (F := Ideal) X (ix2 b n) = sqNorm (xs X b) n := by
  unfold sqNorm
  rw [val_main_v3_apply, zero_word, zero_add]
  exact Finset.sum_congr rfl fun d _ =>
    (congrArg (val_main_v2 (F := Ideal) X) (show idx_main_v3 (ix2 b n) d = ix3 b n d from funext fun a => Fin.ext (by match a with | ⟨0, _⟩ => rfl | ⟨1, _⟩ => rfl | ⟨2, _⟩ => rfl))).trans (v2_at X b n d)

theorem v10_at (b : Fin 8) (n : Fin 4096) (k : Fin 32) :
    val_main_v10 (F := Ideal) X (ix3 b n k) = sqNorm (xs X b) n :=
  (val_main_v10_apply X _).trans ((val_main_v4_apply X _).trans
    ((congrArg (val_main_v3 (F := Ideal) X) (show idx_main_v4 (idx_main_v10 (ix3 b n k)) = ix2 b n from funext fun a => Fin.ext (by match a with | ⟨0, _⟩ => rfl | ⟨1, _⟩ => rfl))).trans (v3_at X b n)))

/-! ## The codewords' squared norms and the scales, spread over samples and descriptors -/

theorem v6_at (k : Fin 32) : val_main_v6 (F := Ideal) cw (ix1 k) = css cw k := by
  unfold css cwSq
  rw [val_main_v6_apply, zero_word0, zero_add]
  exact Finset.sum_congr rfl fun d _ =>
    (congrArg (val_main_v5 (F := Ideal) cw) (show idx_main_v6 (ix1 k) d = ix2 k d from funext fun a => Fin.ext (by match a with | ⟨0, _⟩ => rfl | ⟨1, _⟩ => rfl))).trans rfl

theorem v13_at (b : Fin 8) (n : Fin 4096) (k : Fin 32) : val_main_v13 (F := Ideal) cw (ix3 b n k) = css cw k :=
  (val_main_v13_apply cw _).trans ((val_main_v12_apply cw _).trans
    ((congrArg (val_main_v6 (F := Ideal) cw) (show idx_main_v12 (idx_main_v13 (ix3 b n k)) = ix1 k from funext fun a => Fin.ext (by match a with | ⟨0, _⟩ => rfl))).trans (v6_at cw k)))

theorem v16_at (b : Fin 8) (n : Fin 4096) (k : Fin 32) : val_main_v16 (F := Ideal) sc (ix3 b n k) = scs sc k :=
  (val_main_v16_apply sc _).trans ((val_main_v15_apply sc _).trans
    (congrArg sc (show idx_main_v15 (idx_main_v16 (ix3 b n k)) = ix1 k from funext fun a => Fin.ext (by match a with | ⟨0, _⟩ => rfl))))

/-! ## The inner products and the scores -/

theorem v7_at (b : Fin 8) (n : Fin 4096) (k : Fin 32) :
    val_main_v7 (F := Ideal) X cw (ix3 b n k) = cross (xs X b) (cws cw) k n := by
  unfold cross
  rw [val_main_v7_apply]
  refine Finset.sum_congr rfl fun d _ => ?_
  have el : lidx_main_v7 (ix3 b n k) d = ix3 b n d := funext fun a => Fin.ext (by match a with | ⟨0, _⟩ => rfl | ⟨1, _⟩ => rfl | ⟨2, _⟩ => rfl)
  have er : ridx_main_v7 (ix3 b n k) d = ix2 k d := funext fun a => Fin.ext (by match a with | ⟨0, _⟩ => rfl | ⟨1, _⟩ => rfl)
  rw [el, er, v1_at]
  exact mul_comm _ _

theorem v8_at (i : S8x4096x32.Idx) : val_main_v8 (F := Ideal) i = two := (val_main_v8_apply i).trans rfl

theorem v17_at (b : Fin 8) (n : Fin 4096) (k : Fin 32) :
    val_main_v17 (F := Ideal) X cw sc (ix3 b n k) = score (xs X b) (cws cw) (scs sc) (css cw) k n := by
  rw [val_main_v17_apply, val_main_v14_apply, val_main_v11_apply, val_main_v9_apply, v8_at, v7_at, v10_at, v13_at, v16_at]
  rfl

/-! ## The softmax over the codewords -/

theorem v18_at (b : Fin 8) (n : Fin 4096) :
    val_main_v18 (F := Ideal) X cw sc (ix2 b n) = peak (xs X b) (cws cw) (scs sc) (css cw) n := by
  unfold val_main_v18 peak
  refine (hostMax_last3_apply (val_main_v17 (F := Ideal) X cw sc) (val_main_cst_2 (F := Ideal))
    reducesTo_S8x4096x32_S8x4096_d2 (by decide) h_S_ b n).trans ?_
  exact congrArg (fun f => Finset.fold max negInf f (Finset.univ : Finset (Fin 32))) (funext fun k => v17_at X cw sc b n k)

theorem v19_at (i : S8x4096.Idx) : val_main_v19 (F := Ideal) i = negInf := (val_main_v19_apply i).trans rfl

theorem v20_at (b : Fin 8) (n : Fin 4096) :
    val_main_v20 (F := Ideal) X cw sc (ix2 b n) = peak (xs X b) (cws cw) (scs sc) (css cw) n := by
  rw [val_main_v20_apply, v19_at, v18_at]
  exact max_negInf _

theorem v22_at (b : Fin 8) (n : Fin 4096) (k : Fin 32) :
    val_main_v22 (F := Ideal) X cw sc (ix3 b n k) = peak (xs X b) (cws cw) (scs sc) (css cw) n :=
  (val_main_v22_apply X cw sc _).trans ((val_main_v21_apply X cw sc _).trans
    ((congrArg (val_main_v20 (F := Ideal) X cw sc) (show idx_main_v21 (idx_main_v22 (ix3 b n k)) = ix2 b n from funext fun a => Fin.ext (by match a with | ⟨0, _⟩ => rfl | ⟨1, _⟩ => rfl))).trans (v20_at X cw sc b n)))

theorem v24_at (b : Fin 8) (n : Fin 4096) (k : Fin 32) :
    val_main_v24 (F := Ideal) X cw sc (ix3 b n k) = weight (xs X b) (cws cw) (scs sc) (css cw) k n := by
  rw [val_main_v24_apply, val_main_v23_apply, v17_at, v22_at]
  rfl

theorem v25_at (b : Fin 8) (n : Fin 4096) :
    val_main_v25 (F := Ideal) X cw sc (ix2 b n) = mass (xs X b) (cws cw) (scs sc) (css cw) n := by
  unfold mass
  rw [val_main_v25_apply, zero_word4, zero_add]
  exact Finset.sum_congr rfl fun k _ =>
    (congrArg (val_main_v24 (F := Ideal) X cw sc) (show idx_main_v25 (ix2 b n) k = ix3 b n k from funext fun a => Fin.ext (by match a with | ⟨0, _⟩ => rfl | ⟨1, _⟩ => rfl | ⟨2, _⟩ => rfl))).trans (v24_at X cw sc b n k)

theorem v27_at (b : Fin 8) (n : Fin 4096) (k : Fin 32) :
    val_main_v27 (F := Ideal) X cw sc (ix3 b n k) = mass (xs X b) (cws cw) (scs sc) (css cw) n :=
  (val_main_v27_apply X cw sc _).trans ((val_main_v26_apply X cw sc _).trans
    ((congrArg (val_main_v25 (F := Ideal) X cw sc) (show idx_main_v26 (idx_main_v27 (ix3 b n k)) = ix2 b n from funext fun a => Fin.ext (by match a with | ⟨0, _⟩ => rfl | ⟨1, _⟩ => rfl))).trans (v25_at X cw sc b n)))

theorem v28_at (b : Fin 8) (n : Fin 4096) (k : Fin 32) :
    val_main_v28 (F := Ideal) X cw sc (ix3 b n k) = assign (xs X b) (cws cw) (scs sc) (css cw) k n := by
  rw [val_main_v28_apply, v24_at, v27_at]
  rfl

/-! ## The two sums over the descriptors, and the result -/

theorem v29_at (b : Fin 8) (k : Fin 32) (d : Fin 128) :
    val_main_v29 (F := Ideal) X cw sc (ix3 b k d)
      = ∑ n : Fin 4096, assign (xs X b) (cws cw) (scs sc) (css cw) k n * xs X b d n := by
  rw [val_main_v29_apply]
  refine Finset.sum_congr rfl fun n _ => ?_
  have el : lidx_main_v29 (ix3 b k d) n = ix3 b n k := funext fun a => Fin.ext (by match a with | ⟨0, _⟩ => rfl | ⟨1, _⟩ => rfl | ⟨2, _⟩ => rfl)
  have er : ridx_main_v29 (ix3 b k d) n = ix3 b n d := funext fun a => Fin.ext (by match a with | ⟨0, _⟩ => rfl | ⟨1, _⟩ => rfl | ⟨2, _⟩ => rfl)
  rw [el, er, v28_at, v1_at]

theorem v30_at (b : Fin 8) (k : Fin 32) :
    val_main_v30 (F := Ideal) X cw sc (ix2 b k) = ∑ n : Fin 4096, assign (xs X b) (cws cw) (scs sc) (css cw) k n := by
  rw [val_main_v30_apply, zero_word5, zero_add]
  exact Finset.sum_congr rfl fun n _ =>
    (congrArg (val_main_v28 (F := Ideal) X cw sc) (show idx_main_v30 (ix2 b k) n = ix3 b n k from funext fun a => Fin.ext (by match a with | ⟨0, _⟩ => rfl | ⟨1, _⟩ => rfl | ⟨2, _⟩ => rfl))).trans (v28_at X cw sc b n k)

theorem v33_at (b : Fin 8) (k : Fin 32) (d : Fin 128) :
    val_main_v33 (F := Ideal) X cw sc (ix3 b k d) = ∑ n : Fin 4096, assign (xs X b) (cws cw) (scs sc) (css cw) k n :=
  (val_main_v33_apply X cw sc _).trans ((val_main_v31_apply X cw sc _).trans
    ((congrArg (val_main_v30 (F := Ideal) X cw sc) (show idx_main_v31 (idx_main_v33 (ix3 b k d)) = ix2 b k from funext fun a => Fin.ext (by match a with | ⟨0, _⟩ => rfl | ⟨1, _⟩ => rfl))).trans (v30_at X cw sc b k)))

theorem v34_at (b : Fin 8) (k : Fin 32) (d : Fin 128) : val_main_v34 (F := Ideal) cw (ix3 b k d) = cws cw k d :=
  (val_main_v34_apply cw _).trans ((val_main_v32_apply cw _).trans
    (congrArg cw (show idx_main_v32 (idx_main_v34 (ix3 b k d)) = ix2 k d from funext fun a => Fin.ext (by match a with | ⟨0, _⟩ => rfl | ⟨1, _⟩ => rfl))))

theorem v36_at (b : Fin 8) (k : Fin 32) (d : Fin 128) :
    val_main_v36 (F := Ideal) X cw sc (ix3 b k d) = encodeAt (val_main_v0 (F := Ideal) X) cw sc b k d := by
  rw [val_main_v36_apply, val_main_v35_apply, v29_at, v33_at, v34_at]
  rfl

/-- The reference's result array is the soft-assignment aggregate of the re-laid descriptors. -/
theorem result_eq : val_main_v36 (F := Ideal) X cw sc = encode (val_main_v0 (F := Ideal) X) cw sc := by
  funext i
  obtain ⟨b, k, d, rfl⟩ : ∃ (b : Fin 8) (k : Fin 32) (d : Fin 128), i = ix3 b k d := ⟨i 0, i 1, i 2, eq_ix3 i⟩
  exact v36_at X cw sc b k d

end Cert.ReferenceIdeal.Spec

end
-- ==== Proof.lean ====
/-
  Encoding descriptors against a codebook by soft assignment: the kernel and the reference are one function on the
  extended reals.

  For each of 8 samples, 4096 descriptors x_n of 128 coordinates are scored against 32 codewords c_k by the expanded
  squared distance scaled per codeword, (|x_n|^2 - 2 <c_k, x_n> + |c_k|^2) s_k; the scores are turned into weights by a
  softmax over the codewords; and the result at (k, d) is sum_n a_kn x_dn - (sum_n a_kn) c_kd. The kernel takes two
  samples per grid point and keeps each sample as a [128, 4096] slab; the reference transposes every sample to
  [4096, 128]. Read index by index both are `SoftAssign.encode` of the re-laid descriptors, the codewords and the
  scales: the sums run over the same finite index sets, the two inner products differ by the order of the factors, a
  product accumulated from zero is the sum of products, and a maximum with minus infinity changes nothing. None of these
  steps needs the inputs to be finite, so the precondition is never opened. The kernel's idealization rewrites nothing,
  so the idealization claim is trivial; the three frames are the generated runs.
-/
import proofs.«182063_j48919677501760_2_alg».proof.Defs
import proofs.«182063_j48919677501760_2_alg».proof.Proof.Gen.Kernel
import proofs.«182063_j48919677501760_2_alg».proof.Proof.Gen.Kernel.Skeleton
import proofs.«182063_j48919677501760_2_alg».proof.Proof.Gen.Kernel.Launch
import proofs.«182063_j48919677501760_2_alg».proof.Proof.Gen.Kernel.Points
import proofs.«182063_j48919677501760_2_alg».proof.Proof.Gen.Kernel.Frame
import proofs.«182063_j48919677501760_2_alg».proof.Proof.Gen.KernelIdeal
import proofs.«182063_j48919677501760_2_alg».proof.Proof.Gen.KernelIdeal.Skeleton
import proofs.«182063_j48919677501760_2_alg».proof.Proof.Gen.KernelIdeal.Launch
import proofs.«182063_j48919677501760_2_alg».proof.Proof.Gen.KernelIdeal.Points
import proofs.«182063_j48919677501760_2_alg».proof.Proof.Gen.KernelIdeal.Frame
import proofs.«182063_j48919677501760_2_alg».proof.Proof.Gen.ReferenceIdeal
import proofs.«182063_j48919677501760_2_alg».proof.Proof.Gen.Pre_finite_inputs
import proofs.«182063_j48919677501760_2_alg».proof.Proof.Gen.KernelIdeal.Value
import proofs.«182063_j48919677501760_2_alg».proof.Proof.Gen.ReferenceIdeal.Run
import proofs.«182063_j48919677501760_2_alg».proof.Proof.Gen.ReferenceIdeal.Read
import proofs.«182063_j48919677501760_2_alg».proof.Proof.Blocks
import proofs.«182063_j48919677501760_2_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the result array at the soft-assignment aggregate
    of the re-laid descriptors, the codewords and the scales. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.Spec.result_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
